-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x23x512 : Shape := ⟨3, ![16, 23, 512]⟩
abbrev S23x16x512 : Shape := ⟨3, ![23, 16, 512]⟩
abbrev S115000x256 : Shape := ⟨2, ![115000, 256]⟩
abbrev S512x256 : Shape := ⟨2, ![512, 256]⟩
abbrev S512x512 : Shape := ⟨2, ![512, 512]⟩
abbrev S512 : Shape := ⟨1, ![512]⟩
abbrev S3x1024 : Shape := ⟨2, ![3, 1024]⟩
abbrev S3 : Shape := ⟨1, ![3]⟩
abbrev S_ : Shape := ⟨0, ![]⟩

class Facts : Prop where
  bcast_S_S16x23x512 : S_.BroadcastsInDim S16x23x512 (![] : Fin 0 → Fin S16x23x512.rank)
  reducesTo_S16x23x512_S_d0_1_2 : S16x23x512.ReducesTo [0, 1, 2] S_
  h_S_ : 0 < S_.numel
  bcast_S_S115000x256 : S_.BroadcastsInDim S115000x256 (![] : Fin 0 → Fin S115000x256.rank)
  reducesTo_S115000x256_S_d0_1 : S115000x256.ReducesTo [0, 1] S_
  bcast_S_S512x256 : S_.BroadcastsInDim S512x256 (![] : Fin 0 → Fin S512x256.rank)
  reducesTo_S512x256_S_d0_1 : S512x256.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S3x1024 : S_.BroadcastsInDim S3x1024 (![] : Fin 0 → Fin S3x1024.rank)
  reducesTo_S3x1024_S_d0_1 : S3x1024.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg6 : FVec F S512 .f32) (main_arg7 : FVec F S3x1024 .f32) (main_arg8 : FVec F S3 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S3x1024 .f32 := Host.absf main_arg7
  let main_cst_8 : FVec F S_ .f32 := constant S_ .f32 0x7F800000#32
  let main_v25 : FVec F S3x1024 .f32 := broadcastInDim S3x1024 ![] bcast_S_S3x1024 main_cst_8
  let main_v26 : IVec S3x1024 1 := cmpf .olt main_v24 main_v25
  let main_c_9 : IVec S_ 1 := constantI S_ 1 1#1
  let main_v27 : IVec S_ 1 := (fun x v => Host.reduce IntOp.andi x v reducesTo_S3x1024_S_d0_1 h_S_) main_v26 main_c_9
  let main_v28 : IVec S_ 1 := andi main_v23 main_v27
  let main_v29 : FVec F S3 .f32 := Host.absf main_arg8
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S16x23x512 .f32) (main_arg1 : IVec S23x16x512 32) (main_arg2 : IVec S23x16x512 32) (main_arg3 : FVec F S115000x256 .f32) (main_arg4 : FVec F S512x256 .f32) (main_arg5 : FVec F S512x512 .f32) (main_arg6 : FVec F S512 .f32) (main_arg7 : FVec F S3x1024 .f32) (main_arg8 : FVec F S3 .f32) : IVec S_ 1 :=
  let main_v0 : FVec F S16x23x512 .f32 := Host.absf main_arg0
  let main_cst : FVec F S_ .f32 := constant S_ .f32 0x7F800000#32
  let main_v1 : FVec F S16x23x512 .f32 := broadcastInDim S16x23x512 ![] bcast_S_S16x23x512 main_cst
  let main_v2 : IVec S16x23x512 1 := cmpf .olt main_v0 main_v1
  let main_c : IVec S_ 1 := constantI S_ 1 1#1
  let main_v3 : IVec S_ 1 := (fun x v => Host.reduce IntOp.andi x v reducesTo_S16x23x512_S_d0_1_2 h_S_) main_v2 main_c
  let main_v4 : FVec F S115000x256 .f32 := Host.absf main_arg3
  let main_cst_0 : FVec F S_ .f32 := constant S_ .f32 0x7F800000#32
  let main_v5 : FVec F S115000x256 .f32 := broadcastInDim S115000x256 ![] bcast_S_S115000x256 main_cst_0
  let main_v6 : IVec S115000x256 1 := cmpf .olt main_v4 main_v5
  let main_c_1 : IVec S_ 1 := constantI S_ 1 1#1
  let main_v7 : IVec S_ 1 := (fun x v => Host.reduce IntOp.andi x v reducesTo_S115000x256_S_d0_1 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_v13 main_v16
-- ==== Kernel.lean ====
abbrev S16x23x512 : Shape := ⟨3, ![16, 23, 512]⟩
abbrev S23x16x512 : Shape := ⟨3, ![23, 16, 512]⟩
abbrev S115000x256 : Shape := ⟨2, ![115000, 256]⟩
abbrev S512x256 : Shape := ⟨2, ![512, 256]⟩
abbrev S512x512 : Shape := ⟨2, ![512, 512]⟩
abbrev S512 : Shape := ⟨1, ![512]⟩
abbrev S3x1024 : Shape := ⟨2, ![3, 1024]⟩
abbrev S3 : Shape := ⟨1, ![3]⟩
abbrev S368x512 : Shape := ⟨2, ![368, 512]⟩
abbrev S1x512 : Shape := ⟨2, ![1, 512]⟩
abbrev S23x16x512x1 : Shape := ⟨4, ![23, 16, 512, 1]⟩
abbrev S23 : Shape := ⟨1, ![23]⟩
abbrev S_ : Shape := ⟨0, ![]⟩
abbrev S23x1x1 : Shape := ⟨3, ![23, 1, 1]⟩
abbrev S23x16x512x256 : Shape := ⟨4, ![23, 16, 512, 256]⟩
abbrev S23x16x512x3 : Shape := ⟨4, ![23, 16, 512, 3]⟩
abbrev S1x1x512x256 : Shape := ⟨4, ![1, 1, 512, 256]⟩
abbrev S1x1x512x1 : Shape := ⟨4, ![1, 1, 512, 1]⟩
abbrev S1x1x512x3 : Shape := ⟨4, ![1, 1, 512, 3]⟩
abbrev S512x1 : Shape := ⟨2, ![512, 1]⟩
abbrev S512x1024 : Shape := ⟨2, ![512, 1024]⟩
abbrev S512x3 : Shape := ⟨2, ![512, 3]⟩
abbrev S1x3 : Shape := ⟨2, ![1, 3]⟩

abbrev nBuf : Space → Nat
  | .hbm => 36
  | .vmem => 13
  | .smem => 0
  | _ => 0

abbrev bufTy : (tb : Table) → Fin (tcTables nBuf tb) → BufTy
  | .hbm, ⟨0, _⟩ => ⟨S16x23x512, .f32⟩
  | .hbm, ⟨1, _⟩ => ⟨S23x16x512, .i32⟩
  | .hbm, ⟨2, _⟩ => ⟨S23x16x512, .i32⟩
  | .hbm, ⟨3, _⟩ => ⟨S115000x256, .f32⟩
  | .hbm, ⟨4, _⟩ => ⟨S512x256, .f32⟩
  | .hbm, ⟨5, _⟩ => ⟨S512x512, .f32⟩
  | .hbm, ⟨6, _⟩ => ⟨S512, .f32⟩
  | .hbm, ⟨7, _⟩ => ⟨S3x1024, .f32⟩
  | .hbm, ⟨8, _⟩ => ⟨S3, .f32⟩
  | .hbm, ⟨9, _⟩ => ⟨S368x512, .f32⟩
  | .hbm, ⟨10, _⟩ => ⟨S368x512, .bf16⟩
  | .hbm, ⟨11, _⟩ => ⟨S512x512, .bf16⟩
  | .hbm, ⟨12, _⟩ => ⟨S368x512, .f32⟩
  | .hbm, ⟨13, _⟩ => ⟨S16x23x512, .f32⟩
  | .hbm, ⟨14, _⟩ => ⟨S23x16x512, .f32⟩
  | .hbm, ⟨15, _⟩ => ⟨S23x16x512x1, .f32⟩
  | .hbm, ⟨16, _⟩ => ⟨S23, .i32⟩
  | .hbm, ⟨17, _⟩ => ⟨S_, .i32⟩
  | .hbm, ⟨18, _⟩ => ⟨S23, .i32⟩
  | .hbm, ⟨19, _⟩ => ⟨S23, .i32⟩
  | .hbm, ⟨20, _⟩ => ⟨S23x1x1, .i32⟩
  | .hbm, ⟨21, _⟩ => ⟨S23x16x512, .i32⟩
  | .hbm, ⟨22, _⟩ => ⟨S23x16x512, .i32⟩
  | .hbm, ⟨23, _⟩ => ⟨S115000x256, .bf16⟩
  | .hbm, ⟨24, _⟩ => ⟨S_, .i32⟩
  | .hbm, ⟨25, _⟩ => ⟨S23x16x512, .i32⟩
  | .hbm, ⟨26, _⟩ => ⟨S23x16x512, .i1⟩
  | .hbm, ⟨27, _⟩ => ⟨S_, .i32⟩
  | .hbm, ⟨28, _⟩ => ⟨S23x16x512, .i32⟩
  | .hbm, ⟨29, _⟩ => ⟨S23x16x512, .i32⟩
  | .hbm, ⟨30, _⟩ => ⟨S23x16x512, .i32⟩
  | .hbm, ⟨31, _⟩ => ⟨S23x16x512x1, .i32⟩
  | .hbm, ⟨32, _⟩ => ⟨S23x16x512x256, .bf16⟩
  | .hbm, ⟨33, _⟩ => ⟨S512x256, .bf16⟩
  | .hbm, ⟨34, _⟩ => ⟨S3x1024, .bf16⟩
  | .hbm, ⟨35, _⟩ => ⟨S23x16x512x3, .f32⟩
  | .local _ .vmem, ⟨0, _⟩ => ⟨S368x512, .bf16⟩
  | .local _ .vmem, ⟨1, _⟩ => ⟨S512x512, .bf16⟩
  | .local _ .vmem, ⟨2, _⟩ => ⟨S512, .f32⟩
  | .local _ .vmem, ⟨3, _⟩ => ⟨S368x512, .f32⟩
  | .local _ .vmem, ⟨4, _⟩ => ⟨S1x1x512x256, .bf16⟩
  | .local _ .vmem, ⟨5, _⟩ => ⟨S1x1x512x256, .bf16⟩
  | .local _ .vmem, ⟨6, _⟩ => ⟨S1x1x512x1, .f32⟩
  | .local _ .vmem, ⟨7, _⟩ => ⟨S1x1x512x1, .f32⟩
  | .local _ .vmem, ⟨8, _⟩ => ⟨S512x256, .bf16⟩
  | .local _ .vmem, ⟨9, _⟩ => ⟨S3x1024, .bf16⟩
  | .local _ .vmem, ⟨10, _⟩ => ⟨S3, .f32⟩
  | .local _ .vmem, ⟨11, _⟩ => ⟨S1x1x512x3, .f32⟩
  | .local _ .vmem, ⟨12, _⟩ => ⟨S1x1x512x3, .f32⟩
  | _, _ => ⟨S16x23x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S368x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S368x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![23, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S512x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S3x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1x512x3 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S16x23x512_S368x512 : S16x23x512.ShapeCasts S368x512
  bitsLt_bf16_f32 : FTy.bits .bf16 < FTy.bits .f32
  inb_S368x512_S368x512_0_0 : ∀ a, (![0, 0] : Fin 2 → Nat) a + S368x512.size a ≤ S368x512.size a
  h_S368x512 : 0 < S368x512.numel
  shapeCasts_S368x512_S368x512 : S368x512.ShapeCasts S368x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S368x512 : S1x512.Broadcasts S368x512
  shapeCasts_S368x512_S16x23x512 : S368x512.ShapeCasts S16x23x512
  transposes_S16x23x512_S23x16x512_1_0_2 : S16x23x512.Transposes [1, 0, 2] S23x16x512
  bcast_S23x16x512_S23x16x512x1_0_1_2 : S23x16x512.BroadcastsInDim S23x16x512x1 (![0, 1, 2] : Fin 3 → Fin S23x16x512x1.rank)
  bcast_S_S23 : S_.BroadcastsInDim S23 (![] : Fin 0 → Fin S23.rank)
  bcast_S23_S23x1x1_0 : S23.BroadcastsInDim S23x1x1 (![0] : Fin 1 → Fin S23x1x1.rank)
  bcast_S23x1x1_S23x16x512_0_1_2 : S23x1x1.BroadcastsInDim S23x16x512 (![0, 1, 2] : Fin 3 → Fin S23x16x512.rank)
  bcast_S_S23x16x512 : S_.BroadcastsInDim S23x16x512 (![] : Fin 0 → Fin S23x16x512.rank)
  inb_S1x1x512x256_S1x1x512x256_0_0_0_0 : ∀ a, (![0, 0, 0, 0] : Fin 4 → Nat) a + S1x1x512x256.size a ≤ S1x1x512x256.size a
  h_S1x1x512x256 : 0 < S1x1x512x256.numel
  shapeCasts_S1x1x512x256_S512x256 : S1x1x512x256.ShapeCasts S512x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x1x512x1_S1x1x512x1_0_0_0_0 : ∀ a, (![0, 0, 0, 0] : Fin 4 → Nat) a + S1x1x512x1.size a ≤ S1x1x512x1.size a
  h_S1x1x512x1 : 0 < S1x1x512x1.numel
  shapeCasts_S1x1x512x1_S512x1 : S1x1x512x1.ShapeCasts S512x1
  shapeCasts_S512x1_S512 : S512x1.ShapeCasts S512
  shapeCasts_S1x512_S1x512 : S1x512.ShapeCasts S1x512
  broadcasts_S1x512_S512x512 : S1x512.Broadcasts S512x512
  concatenates_S512x512_S512x512_S512x1024_d1 : Shape.Concatenates [S512x512, S512x512] S512x1024 1
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  inb_S3_S3_0 : ∀ a, (![0] : Fin 1 → Nat) a + S3.size a ≤ S3.size a
  h_S3 : 0 < S3.numel
  shapeCasts_S3_S1x3 : S3.ShapeCasts S1x3
  broadcasts_S1x3_S512x3 : S1x3.Broadcasts S512x3
  inb_S1x1x512x3_S1x1x512x3_0_0_0_0 : ∀ a, (![0, 0, 0, 0] : Fin 4 → Nat) a + S1x1x512x3.size a ≤ S1x1x512x3.size a
  h_S1x1x512x3 : 0 < S1x1x512x3.numel
  shapeCasts_S1x1x512x3_S512x3 : S1x1x512x3.ShapeCasts S512x3
  shapeCasts_S512x3_S1x1x512x3 : S512x3.ShapeCasts S1x1x512x3
  dot_S368x512_S512x512_S368x512_1_1_0_0_n_n_wf : DotDims.WF S368x512 S512x512 S368x512 [1] [1] [0] [0] [] []
  gather_S115000x256_S23x16x512x1_S23x16x512x256_3_0_n_n_0_3_1256_wf : GatherDims.WF S115000x256 S23x16x512x1 S23x16x512x256 [3] [0] [] [0] [] 3 ![1, 256]
  dot_S512x256_S512x256_S512x512_1_1_0_0_n_n_wf : DotDims.WF S512x256 S512x256 S512x512 [1] [1] [0] [0] [] []
  dot_S512x1024_S3x1024_S512x3_1_1_0_0_n_n_wf : DotDims.WF S512x1024 S3x1024 S512x3 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S368x512.size a ≤ S368x512.size a
  hwx0_0 : ∀ i : grid0.Coords, EltTy.bits .bf16 = 32 ∨ (Rect.block (s := S368x512) S368x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S368x512.size a ≤ S368x512.size a
  hwx0_3 : ∀ i : grid0.Coords, EltTy.bits .f32 = 32 ∨ (Rect.block (s := S368x512) S368x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x256.size a ≤ S23x16x512x256.size a
  hwx1_0 : ∀ i : grid1.Coords, EltTy.bits .bf16 = 32 ∨ (Rect.block (s := S23x16x512x256) S1x1x512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512x1.size a ≤ S23x16x512x1.size a
  hwx1_1 : ∀ i : grid1.Coords, EltTy.bits .f32 = 32 ∨ (Rect.block (s := S23x16x512x1) S1x1x512x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .bf16 = 32 ∨ (Rect.block (s := S512x256) S512x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x1024.size a ≤ S3x1024.size a
  hwx1_3 : ∀ i : grid1.Coords, EltTy.bits .bf16 = 32 ∨ (Rect.block (s := S3x1024) S3x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3.size a ≤ S3.size a
  hwx1_4 : ∀ i : grid1.Coords, EltTy.bits .f32 = 32 ∨ (Rect.block (s := S3) S3.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x512x3.size a ≤ S23x16x512x3.size a
  hwx1_5 : ∀ i : grid1.Coords, EltTy.bits .f32 = 32 ∨ (Rect.block (s := S23x16x512x3) S1x1x512x3.size (cc1_transform_5 i) (hinb1_5 i)).WholeWords (EltTy.packing .f32)

variable [Facts₀]

def dot_S368x512_S512x512_S368x512_1_1_0_0_n_n : DotDims S368x512 S512x512 S368x512 where
  lhsContracting := [1]
  rhsContracting := [1]
  lhsNonContracting := [0]
  rhsNonContracting := [0]
  lhsBatch := []
  rhsBatch := []
  wf := dot_S368x512_S512x512_S368x512_1_1_0_0_n_n_wf
def gather_S115000x256_S23x16x512x1_S23x16x512x256_3_0_n_n_0_3_1256 : GatherDims S115000x256 S23x16x512x1 S23x16x512x256 where
  offsetDims := [3]
  collapsedSliceDims := [0]
  operandBatchingDims := []
  startIndicesBatchingDims := []
  startIndexMap := [0]
  indexVectorDim := 3
  sliceSizes := ![1, 256]
  wf := gather_S115000x256_S23x16x512x1_S23x16x512x256_3_0_n_n_0_3_1256_wf
def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf
def dot_S512x1024_S3x1024_S512x3_1_1_0_0_n_n : DotDims S512x1024 S3x1024 S512x3 where
  lhsContracting := [1]
  rhsContracting := [1]
  lhsNonContracting := [0]
  rhsNonContracting := [0]
  lhsBatch := []
  rhsBatch := []
  wf := dot_S512x1024_S3x1024_S512x3_1_1_0_0_n_n_wf

abbrev win0_0 : Pipeline.Window sig grid0 :=
  Pipeline.Window.ofSpec (Memref.whole main_v1) S368x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S368x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S1x1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1x512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S3x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S3.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x1x512x3.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x23x512 : Shape := ⟨3, ![16, 23, 512]⟩
abbrev S23x16x512 : Shape := ⟨3, ![23, 16, 512]⟩
abbrev S115000x256 : Shape := ⟨2, ![115000, 256]⟩
abbrev S512x256 : Shape := ⟨2, ![512, 256]⟩
abbrev S512x512 : Shape := ⟨2, ![512, 512]⟩
abbrev S512 : Shape := ⟨1, ![512]⟩
abbrev S3x1024 : Shape := ⟨2, ![3, 1024]⟩
abbrev S3 : Shape := ⟨1, ![3]⟩
abbrev S1x1x512 : Shape := ⟨3, ![1, 1, 512]⟩
abbrev S23 : Shape := ⟨1, ![23]⟩
abbrev S_ : Shape := ⟨0, ![]⟩
abbrev S23x1x1 : Shape := ⟨3, ![23, 1, 1]⟩
abbrev S23x16x512x1 : Shape := ⟨4, ![23, 16, 512, 1]⟩
abbrev S23x16x512x256 : Shape := ⟨4, ![23, 16, 512, 256]⟩
abbrev S23x16x512x512 : Shape := ⟨4, ![23, 16, 512, 512]⟩
abbrev S23x16x1x512 : Shape := ⟨4, ![23, 16, 1, 512]⟩
abbrev S23x16x512x1024 : Shape := ⟨4, ![23, 16, 512, 1024]⟩
abbrev S23x16x512x3 : Shape := ⟨4, ![23, 16, 512, 3]⟩
abbrev S1x1x1x3 : Shape := ⟨4, ![1, 1, 1, 3]⟩

abbrev nBuf : Space → Nat
  | .hbm => 41
  | .vmem => 0
  | .smem => 0
  | _ => 0

abbrev bufTy : (tb : Table) → Fin (tcTables nBuf tb) → BufTy
  | .hbm, ⟨0, _⟩ => ⟨S16x23x512, .f32⟩
  | .hbm, ⟨1, _⟩ => ⟨S23x16x512, .i32⟩
  | .hbm, ⟨2, _⟩ => ⟨S23x16x512, .i32⟩
  | .hbm, ⟨3, _⟩ => ⟨S115000x256, .f32⟩
  | .hbm, ⟨4, _⟩ => ⟨S512x256, .f32⟩
  | .hbm, ⟨5, _⟩ => ⟨S512x512, .f32⟩
  | .hbm, ⟨6, _⟩ => ⟨S512, .f32⟩
  | .hbm, ⟨7, _⟩ => ⟨S3x1024, .f32⟩
  | .hbm, ⟨8, _⟩ => ⟨S3, .f32⟩
  | .hbm, ⟨9, _⟩ => ⟨S16x23x512, .f32⟩
  | .hbm, ⟨10, _⟩ => ⟨S1x1x512, .f32⟩
  | .hbm, ⟨11, _⟩ => ⟨S16x23x512, .f32⟩
  | .hbm, ⟨12, _⟩ => ⟨S16x23x512, .f32⟩
  | .hbm, ⟨13, _⟩ => ⟨S23, .i32⟩
  | .hbm, ⟨14, _⟩ => ⟨S_, .i32⟩
  | .hbm, ⟨15, _⟩ => ⟨S23, .i32⟩
  | .hbm, ⟨16, _⟩ => ⟨S23, .i32⟩
  | .hbm, ⟨17, _⟩ => ⟨S23x1x1, .i32⟩
  | .hbm, ⟨18, _⟩ => ⟨S23x16x512, .i32⟩
  | .hbm, ⟨19, _⟩ => ⟨S23x16x512, .i32⟩
  | .hbm, ⟨20, _⟩ => ⟨S_, .i32⟩
  | .hbm, ⟨21, _⟩ => ⟨S23x16x512, .i32⟩
  | .hbm, ⟨22, _⟩ => ⟨S23x16x512, .i1⟩
  | .hbm, ⟨23, _⟩ => ⟨S_, .i32⟩
  | .hbm, ⟨24, _⟩ => ⟨S23x16x512, .i32⟩
  | .hbm, ⟨25, _⟩ => ⟨S23x16x512, .i32⟩
  | .hbm, ⟨26, _⟩ => ⟨S23x16x512, .i32⟩
  | .hbm, ⟨27, _⟩ => ⟨S23x16x512x1, .i32⟩
  | .hbm, ⟨28, _⟩ => ⟨S23x16x512x256, .f32⟩
  | .hbm, ⟨29, _⟩ => ⟨S23x16x512x512, .f32⟩
  | .hbm, ⟨30, _⟩ => ⟨S23x16x512, .f32⟩
  | .hbm, ⟨31, _⟩ => ⟨S23x16x1x512, .f32⟩
  | .hbm, ⟨32, _⟩ => ⟨S23x16x512x512, .f32⟩
  | .hbm, ⟨33, _⟩ => ⟨S23x16x512x1024, .f32⟩
  | .hbm, ⟨34, _⟩ => ⟨S23x16x512x3, .f32⟩
  | .hbm, ⟨35, _⟩ => ⟨S1x1x1x3, .f32⟩
  | .hbm, ⟨36, _⟩ => ⟨S23x16x512x3, .f32⟩
  | .hbm, ⟨37, _⟩ => ⟨S23x16x512x3, .f32⟩
  | .hbm, ⟨38, _⟩ => ⟨S_, .f32⟩
  | .hbm, ⟨39, _⟩ => ⟨S23x16x512x3, .f32⟩
  | .hbm, ⟨40, _⟩ => ⟨S23x16x512x3, .f32⟩
  | _, _ => ⟨S16x23x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_cst : Ref sig .tc := ⟨.hbm, 38, rfl⟩
abbrev main_call0_v0 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x23x512_0_1_2 : S1x1x512.BroadcastsInDim S16x23x512 (![0, 1, 2] : Fin 3 → Fin S16x23x512.rank)
  bcast_S_S23 : S_.BroadcastsInDim S23 (![] : Fin 0 → Fin S23.rank)
  bcast_S23_S23x1x1_0 : S23.BroadcastsInDim S23x1x1 (![0] : Fin 1 → Fin S23x1x1.rank)
  bcast_S23x1x1_S23x16x512_0_1_2 : S23x1x1.BroadcastsInDim S23x16x512 (![0, 1, 2] : Fin 3 → Fin S23x16x512.rank)
  bcast_S_S23x16x512 : S_.BroadcastsInDim S23x16x512 (![] : Fin 0 → Fin S23x16x512.rank)
  bcast_S23x16x512_S23x16x512x1_0_1_2 : S23x16x512.BroadcastsInDim S23x16x512x1 (![0, 1, 2] : Fin 3 → Fin S23x16x512x1.rank)
  transposes_S16x23x512_S23x16x512_1_0_2 : S16x23x512.Transposes [1, 0, 2] S23x16x512
  bcast_S23x16x512_S23x16x1x512_0_1_3 : S23x16x512.BroadcastsInDim S23x16x1x512 (![0, 1, 3] : Fin 3 → Fin S23x16x1x512.rank)
  bcast_S23x16x1x512_S23x16x512x512_0_1_2_3 : S23x16x1x512.BroadcastsInDim S23x16x512x512 (![0, 1, 2, 3] : Fin 4 → Fin S23x16x512x512.rank)
  concatenates_S23x16x512x512_S23x16x512x512_S23x16x512x1024_d3 : Shape.Concatenates [S23x16x512x512, S23x16x512x512] S23x16x512x1024 3
  bcast_S3_S1x1x1x3_3 : S3.BroadcastsInDim S1x1x1x3 (![3] : Fin 1 → Fin S1x1x1x3.rank)
  bcast_S1x1x1x3_S23x16x512x3_0_1_2_3 : S1x1x1x3.BroadcastsInDim S23x16x512x3 (![0, 1, 2, 3] : Fin 4 → Fin S23x16x512x3.rank)
  bcast_S_S23x16x512x3 : S_.BroadcastsInDim S23x16x512x3 (![] : Fin 0 → Fin S23x16x512x3.rank)
  dot_S16x23x512_S512x512_S16x23x512_2_1_01_0_n_n_wf : DotDims.WF S16x23x512 S512x512 S16x23x512 [2] [1] [0, 1] [0] [] []
  gather_S115000x256_S23x16x512x1_S23x16x512x256_3_0_n_n_0_3_1256_wf : GatherDims.WF S115000x256 S23x16x512x1 S23x16x512x256 [3] [0] [] [0] [] 3 ![1, 256]
  dot_S23x16x512x256_S512x256_S23x16x512x512_3_1_012_0_n_n_wf : DotDims.WF S23x16x512x256 S512x256 S23x16x512x512 [3] [1] [0, 1, 2] [0] [] []
  dot_S23x16x512x1024_S3x1024_S23x16x512x3_3_1_012_0_n_n_wf : DotDims.WF S23x16x512x1024 S3x1024 S23x16x512x3 [3] [1] [0, 1, 2] [0] [] []

variable [Facts₀]

def dot_S16x23x512_S512x512_S16x23x512_2_1_01_0_n_n : DotDims S16x23x512 S512x512 S16x23x512 where
  lhsContracting := [2]
  rhsContracting := [1]
  lhsNonContracting := [0, 1]
  rhsNonContracting := [0]
  lhsBatch := []
  rhsBatch := []
  wf := dot_S16x23x512_S512x512_S16x23x512_2_1_01_0_n_n_wf
def gather_S115000x256_S23x16x512x1_S23x16x512x256_3_0_n_n_0_3_1256 : GatherDims S115000x256 S23x16x512x1 S23x16x512x256 where
  offsetDims := [3]
  collapsedSliceDims := [0]
  operandBatchingDims := []
  startIndicesBatchingDims := []
  startIndexMap := [0]
  indexVectorDim := 3
  sliceSizes := ![1, 256]
  wf := gather_S115000x256_S23x16x512x1_S23x16x512x256_3_0_n_n_0_3_1256_wf
def dot_S23x16x512x256_S512x256_S23x16x512x512_3_1_012_0_n_n : DotDims S23x16x512x256 S512x256 S23x16x512x512 where
  lhsContracting := [3]
  rhsContracting := [1]
  lhsNonContracting := [0, 1, 2]
  rhsNonContracting := [0]
  lhsBatch := []
  rhsBatch := []
  wf := dot_S23x16x512x256_S512x256_S23x16x512x512_3_1_012_0_n_n_wf
def dot_S23x16x512x1024_S3x1024_S23x16x512x3_3_1_012_0_n_n : DotDims S23x16x512x1024 S3x1024 S23x16x512x3 where
  lhsContracting := [3]
  rhsContracting := [1]
  lhsNonContracting := [0, 1, 2]
  rhsNonContracting := [0]
  lhsBatch := []
  rhsBatch := []
  wf := dot_S23x16x512x1024_S3x1024_S23x16x512x3_3_1_012_0_n_n_wf

class Facts : Prop extends Facts₀ where

variable [Facts]
-- ==== Proof.KernelRun.lean ====
/-
  The run of the idealized kernel program with its result array NAMED.

  @main is four segments: a stretch of host operations, the projection region, a second stretch of host operations,
  and the main region. The buffer contents at the four boundaries are the fold `W0 … W4` of the frame module; the
  last of them, `W4`, is what every unscoped buffer holds when @main returns. The frame theorem reads only the
  argument arrays out of that final state; here the same launch is read once more at the result buffer as well, so
  that a value proof can go on from `W4 … main_v23`.
-/
import proofs.«118054_j82643760710187_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and every argument array as launched. -/
theorem run : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Whole

end
-- ==== Proof.LibRowsDot.lean ====
/-
  A product of rows: for matrices `l` of M rows and `r` of N rows, both of width K, the contraction of the second
  axis of each — the dimension numbers ⟨[1], [1], [0], [0], [], []⟩ of `DotDims.transposedRhs` — read at the output
  index (a, b) is the sum over k < K of l[a, k] · r[b, k]. The contraction index of the dimension record is a
  one-coordinate tuple; the sum is re-indexed through that coordinate.
-/
import Idealize.ShloMosaic.PureOps.Ideal.Laws
import Idealize.ShloMosaic.Lib.ValueIdx

noncomputable section

namespace Cert.RowsDot

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The left operand's index at output (a, b) and contraction coordinate k is (a, k). -/
theorem lhs_at {M K N : Nat} (a : Fin M) (b : Fin N) (k : Fin K) :
    (DotDims.transposedRhs M K N).lhsIdx (ix2 a b) ((contrEquiv1 (DotDims.transposedRhs M K N) K rfl rfl).symm k) = ix2 a k := by
  have hk := contrEquiv1_symm_val (DotDims.transposedRhs M K N) K rfl rfl k
  funext x
  apply Fin.ext
  match x with
  | ⟨0, _⟩ => exact lhs_row _ _
  | ⟨1, _⟩ => exact ((DotDims.transposedRhs M K N).lhsIdx_val_of_single rfl _ _).trans hk

/-- The right operand's index there is (b, k). -/
theorem rhs_at {M K N : Nat} (a : Fin M) (b : Fin N) (k : Fin K) :
    (DotDims.transposedRhs M K N).rhsIdx (ix2 a b) ((contrEquiv1 (DotDims.transposedRhs M K N) K rfl rfl).symm k) = ix2 b k := by
  have hk := contrEquiv1_symm_val (DotDims.transposedRhs M K N) K rfl rfl k
  funext x
  apply Fin.ext
  match x with
  | ⟨0, _⟩ => exact rhs_row _ _
  | ⟨1, _⟩ => exact ((DotDims.transposedRhs M K N).rhsIdx_val_of_single rfl _ _).trans hk

/-- The contraction's sum at (a, b) is the sum over the shared width of the two rows' products. -/
theorem sum_at {M K N : Nat} (l : (⟨2, ![M, K]⟩ : Shape).Idx → EReal) (r : (⟨2, ![N, K]⟩ : Shape).Idx → EReal)
    (a : Fin M) (b : Fin N) :
    ∑ q : (DotDims.transposedRhs M K N).contr.Idx,
        l ((DotDims.transposedRhs M K N).lhsIdx (ix2 a b) q) * r ((DotDims.transposedRhs M K N).rhsIdx (ix2 a b) q)
      = ∑ k : Fin K, l (ix2 a k) * r (ix2 b k) := by
  rw [← Equiv.sum_comp (contrEquiv1 (DotDims.transposedRhs M K N) K rfl rfl).symm]
  refine Finset.sum_congr rfl fun k _ => ?_
  rw [lhs_at, rhs_at]

/-- A matrix unit's product into a zero accumulator, at the ideal values: that sum. -/
theorem matmul_zero_at {M K N : Nat} {φ₁ φ₂ : FTy} (l : FVec Ideal ⟨2, ![M, K]⟩ φ₁) (r : FVec Ideal ⟨2, ![N, K]⟩ φ₂)
    (a : Fin M) (b : Fin N) :
    FloatOps.matmul (DotDims.transposedRhs M K N) none l r (constant ⟨2, ![M, N]⟩ .f32 0x00000000#32) (ix2 a b)
      = ∑ k : Fin K, l (ix2 a k) * r (ix2 b k) :=
  (Ideal.matmul_constant_zero_apply _ none l r (ix2 a b)).trans (sum_at l r a b)

/-- The same for any dimension record that IS that one (a printed program names its own). -/
theorem matmul_zero_at_of_eq {M K N : Nat} {φ₁ φ₂ : FTy} (D : DotDims ⟨2, ![M, K]⟩ ⟨2, ![N, K]⟩ ⟨2, ![M, N]⟩)
    (hD : D = DotDims.transposedRhs M K N) (l : FVec Ideal ⟨2, ![M, K]⟩ φ₁) (r : FVec Ideal ⟨2, ![N, K]⟩ φ₂)
    (a : Fin M) (b : Fin N) :
    FloatOps.matmul D none l r (constant ⟨2, ![M, N]⟩ .f32 0x00000000#32) (ix2 a b)
      = ∑ k : Fin K, l (ix2 a k) * r (ix2 b k) := by
  subst hD
  exact matmul_zero_at l r a b

end Cert.RowsDot

end
-- ==== Proof.EosPayload.lean ====
/-
  The projection kernel's arithmetic, read at one output entry.

  The body loads the whole [368, 512] block of flattened end-of-sequence embeddings, the whole [512, 512] weight and
  the [512] bias, multiplies rows by rows and adds the bias along the output feature. At row r and feature d that is
  the sum over e < 512 of x[r, e] · w[d, e], plus bias[d].
-/
import proofs.«118054_j82643760710187_1_alg».proof.Proof.Gen.KernelIdeal.Skeleton
import proofs.«118054_j82643760710187_1_alg».proof.Proof.LibRowsDot
import Idealize.ShloMosaic.Lib.Pipeline.Value
import Idealize.ShloMosaic.Lib.ValueLayout

set_option maxRecDepth 16384

noncomputable section

namespace Cert.KernelIdeal.Eos

open Cert.KernelIdeal Cert.KernelIdeal.Gen
open Idealize.ShloMosaic Idealize.ShloMosaic.ValueIdx

/-- The stored value at (r, d): the row-by-row product plus the bias. -/
theorem payload_at (x0 : Vec Ideal S368x512 .bf16) (x1 : Vec Ideal S512x512 .bf16) (x2 : Vec Ideal S512 .f32)
    (r : Fin 368) (d : Fin 512) :
    k0_pay1 (F := Ideal) x0 x1 x2 (ix2 r d) = (∑ e : Fin 512, x0 (ix2 r e) * x1 (ix2 d e)) + x2 (ix1 d) := by
  unfold k0_pay1
  simp only [shapeCast_self]
  refine congrArg₂ (· + ·) ?_ ?_
  · exact Cert.RowsDot.matmul_zero_at_of_eq (M := 368) (K := 512) (N := 512) (φ₁ := .bf16) (φ₂ := .bf16) dot_S368x512_S512x512_S368x512_1_1_0_0_n_n rfl x0 x1 r d
  · exact (broadcastTo_1b_ab_apply _ _ r d).trans (shapeCast_a_1a_apply x2 _ 0 d)

end Cert.KernelIdeal.Eos

end
-- ==== Proof.EosRegion.lean ====
/-
  What the projection call leaves in its result array.

  The call has one grid point and every window is its whole array, so each input block is the array itself as the call
  finds it, the one write-back is the stored value, and its block covers the result array: the array ends holding the
  body's stored value of the three input arrays.
-/
import proofs.«118054_j82643760710187_1_alg».proof.Proof.Gen.KernelIdeal.Frame
import Idealize.ShloMosaic.Lib.Pipeline.Value

set_option maxRecDepth 16384

noncomputable section

namespace Cert.KernelIdeal.Eos

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- At the one grid point every window's block index is zero on every axis. -/
theorem index_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0 :=
  (by decide +kernel : ∀ t : Fin grid0.N, _)

/-- The block of flattened embeddings is the whole array. -/
theorem block_x (c : Dev nD) (t : Fin cfg0.N) : iblk0 V c 0 t = V c main_v1 := by
  obtain ⟨e0, e1, -⟩ := index_zero t
  funext y
  show V c main_v1 (((cfg0.win 0).blk t).view.emb y) = V c main_v1 y
  refine congrArg (V c main_v1) (funext fun a => Fin.ext ?_)
  match a with
  | ⟨0, _⟩ => show win0_0.index t (0 : Fin 2) * 368 + 1 * (y 0).val = (y 0).val; rw [e0]; omega
  | ⟨1, _⟩ => show win0_0.index t (1 : Fin 2) * 512 + 1 * (y 1).val = (y 1).val; rw [e1]; omega

/-- The weight block is the whole weight. -/
theorem block_w (c : Dev nD) (t : Fin cfg0.N) : iblk0 V c 1 t = V c main_v2 := by
  obtain ⟨-, -, e0, e1, -⟩ := index_zero t
  funext y
  show V c main_v2 (((cfg0.win 1).blk t).view.emb y) = V c main_v2 y
  refine congrArg (V c main_v2) (funext fun a => Fin.ext ?_)
  match a with
  | ⟨0, _⟩ => show win0_1.index t (0 : Fin 2) * 512 + 1 * (y 0).val = (y 0).val; rw [e0]; omega
  | ⟨1, _⟩ => show win0_1.index t (1 : Fin 2) * 512 + 1 * (y 1).val = (y 1).val; rw [e1]; omega

/-- The bias block is the whole bias. -/
theorem block_b (c : Dev nD) (t : Fin cfg0.N) : iblk0 V c 2 t = V c main_arg6 := by
  obtain ⟨-, -, -, -, e0, -⟩ := index_zero t
  funext y
  show V c main_arg6 (((cfg0.win 2).blk t).view.emb y) = V c main_arg6 y
  refine congrArg (V c main_arg6) (funext fun a => Fin.ext ?_)
  match a with
  | ⟨0, _⟩ => show win0_2.index t (0 : Fin 1) * 512 + 1 * (y 0).val = (y 0).val; rw [e0]; omega

/-- The stored value of the three arrays as the call finds them. -/
abbrev stored (c : Dev nD) : Buf (Elt F) ((c : Thread nD τ).loc main_v3) :=
  k0_pay1 (V c main_v1) (V c main_v2) (V c main_arg6)

/-- The one write-back is the stored value, read through the result's one block. -/
theorem flushed_eq (c : Dev nD) (t : Fin cfg0.N) :
    (dat0 V c).flushed 3 t = ((cfg0.win 3).blk t).view.read (Elt F) (stored V c) := by
  show (cfg0.win 3).cut (grid0.coords t) ((dat0 V c).after 3 t) = _
  rw [after0_3]
  unfold out0_3
  rw [View.canon_unit_zero zeros2]
  simp only [View.ld_unit_zero (S := S368x512) zeros2, View.ld_unit_zero (S := S512x512) zeros2,
    View.ld_unit_zero (S := S512) zeros1]
  rw [block_x, block_w, block_b]
  obtain ⟨-, -, -, -, -, e0, e1⟩ := index_zero t
  funext y
  show stored V c y = stored V c (((cfg0.win 3).blk t).view.emb y)
  refine congrArg (stored V c) (funext fun a => Fin.ext ?_)
  match a with
  | ⟨0, _⟩ => show (y 0).val = win0_3.index t (0 : Fin 2) * 368 + 1 * (y 0).val; rw [e0]; omega
  | ⟨1, _⟩ => show (y 1).val = win0_3.index t (1 : Fin 2) * 512 + 1 * (y 1).val; rw [e1]; omega

/-- An index of the result array is in the point's block iff each coordinate is in the block's range. -/
theorem mem_block (t : Fin cfg0.N) (i : S368x512.Idx) :
    i ∈ ((cfg0.win 3).blk t).view.set ↔ ∀ a : Fin 2, win0_3.index t a * S368x512.size a ≤ (i a).val
      ∧ (i a).val < win0_3.index t a * S368x512.size a + S368x512.size a := by
  show i ∈ ((View.whole main_v3).slice (win0_3.rect t)).set ↔ _
  rw [View.set_slice_whole, Rect.mem_set_unit]
  exact Iff.rfl

/-- The result array after the call. -/
theorem final (c : Dev nD) : (dat0 V c).arrAt 3 cfg0.N = stored V c :=
  (dat0 V c).arrAt_eq_of_cover 3 (stored V c) (fun t _ => flushed_eq V c t) fun i => by
    refine ⟨t0_0, flush0_3 t0_0, ?_⟩
    rw [mem_block]
    obtain ⟨-, -, -, -, -, e0, e1⟩ := index_zero t0_0
    intro a
    match a with
    | ⟨0, _⟩ =>
      show win0_3.index t0_0 (0 : Fin 2) * 368 ≤ (i 0).val ∧ (i 0).val < win0_3.index t0_0 (0 : Fin 2) * 368 + 368
      have h0 : (i 0).val < 368 := (i 0).isLt; rw [e0]; omega
    | ⟨1, _⟩ =>
      show win0_3.index t0_0 (1 : Fin 2) * 512 ≤ (i 1).val ∧ (i 1).val < win0_3.index t0_0 (1 : Fin 2) * 512 + 512
      have h1 : (i 1).val < 512 := (i 1).isLt; rw [e1]; omega

end Cert.KernelIdeal.Eos

end
-- ==== Proof.MainPayload.lean ====
/-
  The main kernel's arithmetic, read at one output entry.

  At a grid point the body holds the [512, 256] block of gathered bin embeddings, the [512, 1] column of the projected
  end-of-sequence embedding of that point, and the three weights whole. For a bin s it forms the row of 1024 features —
  feature k < 512 is the embedding row times row k of W_bin, feature 512 + d is entry d of the column, the same for
  every s — multiplies it by row n of W_fc, adds b_fc[n] and keeps the larger of that and zero.
-/
import proofs.«118054_j82643760710187_1_alg».proof.Proof.Gen.KernelIdeal.Skeleton
import proofs.«118054_j82643760710187_1_alg».proof.Proof.LibRowsDot
import Idealize.ShloMosaic.Lib.Pipeline.Value
import Idealize.ShloMosaic.Lib.ValueLayout

set_option maxRecDepth 16384

noncomputable section

namespace Cert.KernelIdeal.Main

open Cert.KernelIdeal Cert.KernelIdeal.Gen
open Idealize.ShloMosaic Idealize.ShloMosaic.ValueIdx

/-- Feature `k` of bin `s`'s row, from the point's blocks. -/
def rowFeat (x0 : Vec Ideal S1x1x512x256 .bf16) (x2 : Vec Ideal S512x256 .bf16) (x5 : Vec Ideal S1x1x512x1 .f32)
    (s : Fin 512) (k : Fin 1024) : EReal :=
  if h : k.val < 512 then ∑ e : Fin 256, x0 (ix4 (0 : Fin 1) (0 : Fin 1) s e) * x2 (ix2 ⟨k.val, h⟩ e)
  else x5 (ix4 (0 : Fin 1) (0 : Fin 1) ⟨k.val - 512, by have := k.isLt; omega⟩ (0 : Fin 1))

/-- The embedding block with its two unit axes dropped reads the block at (0, 0, s, e). -/
theorem emb_cast (x0 : Vec Ideal S1x1x512x256 .bf16) (s : Fin 512) (e : Fin 256) :
    shapeCast S512x256 x0 shapeCasts_S1x1x512x256_S512x256 (ix2 s e) = x0 (ix4 (0 : Fin 1) (0 : Fin 1) s e) :=
  shapeCast_apply x0 _ _ _ (by
    rw [Shape.rowMajor_val_four, Shape.rowMajor_val_two]
    show ((0 * 1 + 0) * 512 + s.val) * 256 + e.val = s.val * 256 + e.val
    omega)

/-- The column, flattened to a vector, laid as one row and repeated over the 512 bins, reads entry d of the column. -/
theorem eos_row (x5 : Vec Ideal S1x1x512x1 .f32) (s : Fin 512) (d : Fin 512) :
    broadcastTo S512x512 (shapeCast S1x512 (shapeCast S1x512 (shapeCast S512 (shapeCast S512x1 x5 shapeCasts_S1x1x512x1_S512x1)
      shapeCasts_S512x1_S512) shapeCasts_S512_S1x512) shapeCasts_S1x512_S1x512) broadcasts_S1x512_S512x512 (ix2 s d)
      = x5 (ix4 (0 : Fin 1) (0 : Fin 1) d (0 : Fin 1)) := by
  rw [shapeCast_self]
  refine (broadcastTo_1b_ab_apply _ _ s d).trans ?_
  refine (shapeCast_a_1a_apply _ _ 0 d).trans ?_
  refine (shapeCast_apply _ _ (ix1 d) (ix2 d (0 : Fin 1)) (by
    rw [Shape.rowMajor_val_two, Shape.rowMajor_val_one]
    show d.val * 1 + 0 = d.val
    omega)).trans ?_
  exact shapeCast_apply x5 _ (ix2 d (0 : Fin 1)) (ix4 (0 : Fin 1) (0 : Fin 1) d (0 : Fin 1)) (by
    rw [Shape.rowMajor_val_four, Shape.rowMajor_val_two]
    show ((0 * 1 + 0) * 512 + d.val) * 1 + 0 = d.val * 1 + 0
    omega)

/-- The two halves joined along the feature axis: below 512 the first, from 512 on the second. -/
theorem joined_at (A B : FVec Ideal S512x512 .f32) (s : Fin 512) (k : Fin 1024) :
    concatenate S512x1024 1 [⟨S512x512, A⟩, ⟨S512x512, B⟩] concatenates_S512x512_S512x512_S512x1024_d1 (ix2 s k)
      = if h : k.val < 512 then A (ix2 s ⟨k.val, h⟩) else B (ix2 s ⟨k.val - 512, by have := k.isLt; omega⟩) := by
  by_cases h : k.val < 512
  · rw [dif_pos h]
    exact concatenate_pair_apply_left (1 : Fin 2) A B _ (ix2 s k) rfl (ix2 s ⟨k.val, h⟩)
      (fun b => match b with | ⟨0, _⟩ => rfl | ⟨1, _⟩ => rfl)
  · rw [dif_neg h]
    exact concatenate_pair_apply_right (1 : Fin 2) A B _ (ix2 s k) rfl rfl (ix2 s ⟨k.val - 512, by have := k.isLt; omega⟩)
      (fun b => match b with | ⟨0, _⟩ => fun _ => rfl | ⟨1, _⟩ => fun hb => absurd rfl hb)
      (by show k.val - 512 + 512 = k.val; omega)

/-- The stored value at bin s, state n. -/
theorem payload_at (x0 : Vec Ideal S1x1x512x256 .bf16) (x2 : Vec Ideal S512x256 .bf16) (x5 : Vec Ideal S1x1x512x1 .f32)
    (x13 : Vec Ideal S3x1024 .bf16) (x16 : Vec Ideal S3 .f32) (u0 u1 : Fin 1) (s : Fin 512) (n : Fin 3) :
    k1_pay1 (F := Ideal) x0 x2 x5 x13 x16 (ix4 u0 u1 s n)
      = max ((∑ k : Fin 1024, rowFeat x0 x2 x5 s k * x13 (ix2 n k)) + x16 (ix1 n)) (Ideal.ofBits .f32 0x00000000#32) := by
  unfold k1_pay1
  simp only [shapeCast_self]
  refine (shapeCast_apply _ _ (ix4 u0 u1 s n) (ix2 s n) (by
    have h0 : u0.val = 0 := by omega
    have h1 : u1.val = 0 := by omega
    rw [Shape.rowMajor_val_four, Shape.rowMajor_val_two]
    show s.val * 3 + n.val = ((u0.val * 1 + u1.val) * 512 + s.val) * 3 + n.val
    rw [h0, h1]; omega)).trans ?_
  refine (maximumf_apply _ _ (ix2 s n)).trans ?_
  refine congrArg₂ max ((addf_apply _ _ (ix2 s n)).trans (congrArg₂ (· + ·) ?_ ?_)) rfl
  · refine (Cert.RowsDot.matmul_zero_at_of_eq (M := 512) (K := 1024) (N := 3) (φ₁ := .bf16) (φ₂ := .bf16) dot_S512x1024_S3x1024_S512x3_1_1_0_0_n_n rfl _ x13 s n).trans ?_
    refine Finset.sum_congr rfl fun k _ => congrArg (· * x13 (ix2 n k)) ?_
    refine (joined_at _ _ s k).trans ?_
    unfold rowFeat
    by_cases h : k.val < 512
    · rw [dif_pos h, dif_pos h]
      refine (Cert.RowsDot.matmul_zero_at_of_eq (M := 512) (K := 256) (N := 512) (φ₁ := .bf16) (φ₂ := .bf16) dot_S512x256_S512x256_S512x512_1_1_0_0_n_n rfl _ _ s ⟨k.val, h⟩).trans ?_
      exact Finset.sum_congr rfl fun e _ => congrArg₂ (· * ·) (emb_cast x0 s e) (congrFun (shapeCast_self x2 _) _)
    · rw [dif_neg h, dif_neg h]
      exact eos_row x5 s _
  · exact (broadcastTo_1b_ab_apply _ _ s n).trans (shapeCast_a_1a_apply x16 _ 0 n)

end Cert.KernelIdeal.Main

end
-- ==== Proof.Spec.lean ====
/-
  The function both programs compute, written once over the extended reals.

  For a class c (of 23), a batch row b (of 16) and a sampled bin s (of 512) the decoder forms a row of 1024 features:
  the first 512 are the bin's embedding E[c, b, s, ·] (256 numbers) projected by W_bin, the last 512 are the row of the
  projected end-of-sequence embedding, (eos_emb[b, c, ·] · W_eos[d, ·]) + b_eos[d], repeated for every bin of that
  (c, b). The prediction for state n is the larger of zero and the feature row's product with W_fc[n, ·] plus b_fc[n].

  The embedding array E enters as an argument: both programs obtain it from the table by the same gather at the same
  integer indices, so nothing about which rows it holds is needed.
-/
import Idealize.ShloMosaic.PureOps.Ideal
import Idealize.ShloMosaic.Lib.ValueIdx

noncomputable section

namespace Cert.Decoder

open Idealize.ShloMosaic Idealize.ShloMosaic.ValueIdx

/-- The projected end-of-sequence embedding of batch row `b`, class `c`, at output feature `d`. -/
def eosAt (X : (⟨3, ![16, 23, 512]⟩ : Shape).Idx → EReal) (We : (⟨2, ![512, 512]⟩ : Shape).Idx → EReal)
    (be : (⟨1, ![512]⟩ : Shape).Idx → EReal) (b : Fin 16) (c : Fin 23) (d : Fin 512) : EReal :=
  (∑ e : Fin 512, X (ix3 b c e) * We (ix2 d e)) + be (ix1 d)

/-- Feature `k` of the 1024-wide row of (c, b, s): the projected bin embedding below 512, the projected
    end-of-sequence embedding from 512 on. -/
def featAt (E : (⟨4, ![23, 16, 512, 256]⟩ : Shape).Idx → EReal) (Wb : (⟨2, ![512, 256]⟩ : Shape).Idx → EReal)
    (P : Fin 16 → Fin 23 → Fin 512 → EReal) (c : Fin 23) (b : Fin 16) (s : Fin 512) (k : Fin 1024) : EReal :=
  if h : k.val < 512 then ∑ e : Fin 256, E (ix4 c b s e) * Wb (ix2 ⟨k.val, h⟩ e)
  else P b c ⟨k.val - 512, by have := k.isLt; omega⟩

/-- The prediction at (c, b, s, n). -/
def predAt (E : (⟨4, ![23, 16, 512, 256]⟩ : Shape).Idx → EReal) (Wb : (⟨2, ![512, 256]⟩ : Shape).Idx → EReal)
    (P : Fin 16 → Fin 23 → Fin 512 → EReal) (Wf : (⟨2, ![3, 1024]⟩ : Shape).Idx → EReal)
    (bf : (⟨1, ![3]⟩ : Shape).Idx → EReal) (i : (⟨4, ![23, 16, 512, 3]⟩ : Shape).Idx) : EReal :=
  max ((∑ k : Fin 1024, featAt E Wb P (i 0) (i 1) (i 2) k * Wf (ix2 (i 3) k)) + bf (ix1 (i 3)))
    (Ideal.ofBits .f32 0x00000000#32)

end Cert.Decoder

end
-- ==== Proof.MainRegion.lean ====
/-
  What the main call leaves in its result array.

  The grid is 23 × 16: point (c, b) takes the [512, 256] block (c, b) of the gathered embeddings, the [512, 1] block
  (c, b) of the projected end-of-sequence column and the weights whole, and writes block (c, b) of the result. So each
  write-back is a block of ONE function of the arrays as the call finds them — the prediction `Cert.Decoder.predAt` —
  and the 368 blocks tile the result array.
-/
import proofs.«118054_j82643760710187_1_alg».proof.Proof.Gen.KernelIdeal.Frame
import proofs.«118054_j82643760710187_1_alg».proof.Proof.MainPayload
import proofs.«118054_j82643760710187_1_alg».proof.Proof.Spec
import Idealize.ShloMosaic.Lib.Pipeline.Value

set_option maxRecDepth 16384

noncomputable section

namespace Cert.KernelIdeal.Main

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros4 : (![0, 0, 0, 0] : Fin 4 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The printed index maps over the grid: the two blocked inputs move with the output on the class and batch axes and
    stay at zero on the others, the weights stay at zero, and the output's class and batch block indices are in range. -/
theorem index_facts : ∀ t : Fin cfg1.N,
    win1_0.index t (0 : Fin 4) = win1_5.index t (0 : Fin 4) ∧ win1_0.index t (1 : Fin 4) = win1_5.index t (1 : Fin 4)
    ∧ win1_0.index t (2 : Fin 4) = 0 ∧ win1_0.index t (3 : Fin 4) = 0
    ∧ win1_1.index t (0 : Fin 4) = win1_5.index t (0 : Fin 4) ∧ win1_1.index t (1 : Fin 4) = win1_5.index t (1 : Fin 4)
    ∧ win1_1.index t (2 : Fin 4) = 0 ∧ win1_1.index t (3 : Fin 4) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (2 : Fin 4) = 0 ∧ win1_5.index t (3 : Fin 4) = 0
    ∧ win1_5.index t (0 : Fin 4) < 23 ∧ win1_5.index t (1 : Fin 4) < 16 :=
  (by decide +kernel : ∀ t : Fin grid1.N, _)

/-- Every (class, batch row) is some grid point's output block. -/
theorem index_onto : ∀ (cc : Fin 23) (bb : Fin 16), ∃ t : Fin cfg1.N,
    win1_5.index t (0 : Fin 4) = cc.val ∧ win1_5.index t (1 : Fin 4) = bb.val :=
  (by decide +kernel : ∀ (cc : Fin 23) (bb : Fin 16), ∃ t : Fin grid1.N,
    win1_5.index t (0 : Fin 4) = cc.val ∧ win1_5.index t (1 : Fin 4) = bb.val)

/-- The embedding block of the point whose output block is (cc, bb): entry (s, e) is the array's at (cc, bb, s, e). -/
theorem block_emb (c : Dev nD) (t : Fin cfg1.N) (cc : Fin 23) (bb : Fin 16) (hc : win1_5.index t (0 : Fin 4) = cc.val)
    (hb : win1_5.index t (1 : Fin 4) = bb.val) (u0 u1 : Fin 1) (s : Fin 512) (e : Fin 256) :
    (iblk1 V c 0 t : S1x1x512x256.Idx → EReal) (ix4 u0 u1 s e) = (V c main_v20 : S23x16x512x256.Idx → EReal) (ix4 cc bb s e) := by
  obtain ⟨e0, e1, e2, e3, -⟩ := index_facts t
  show (V c main_v20 : S23x16x512x256.Idx → EReal) (((cfg1.win 0).blk t).view.emb (ix4 u0 u1 s e)) = _
  refine congrArg (V c main_v20 : S23x16x512x256.Idx → EReal) (funext fun a => Fin.ext ?_)
  have h0 : u0.val = 0 := by omega
  have h1 : u1.val = 0 := by omega
  match a with
  | ⟨0, _⟩ => show win1_0.index t (0 : Fin 4) * 1 + 1 * u0.val = cc.val; rw [e0, hc, h0]; omega
  | ⟨1, _⟩ => show win1_0.index t (1 : Fin 4) * 1 + 1 * u1.val = bb.val; rw [e1, hb, h1]; omega
  | ⟨2, _⟩ => show win1_0.index t (2 : Fin 4) * 512 + 1 * s.val = s.val; rw [e2]; omega
  | ⟨3, _⟩ => show win1_0.index t (3 : Fin 4) * 256 + 1 * e.val = e.val; rw [e3]; omega

/-- The end-of-sequence column of that point: entry d is the array's at (cc, bb, d, 0). -/
theorem block_eos (c : Dev nD) (t : Fin cfg1.N) (cc : Fin 23) (bb : Fin 16) (hc : win1_5.index t (0 : Fin 4) = cc.val)
    (hb : win1_5.index t (1 : Fin 4) = bb.val) (u0 u1 : Fin 1) (d : Fin 512) (u3 : Fin 1) :
    (iblk1 V c 1 t : S1x1x512x1.Idx → EReal) (ix4 u0 u1 d u3) = (V c main_v6 : S23x16x512x1.Idx → EReal) (ix4 cc bb d (0 : Fin 1)) := by
  obtain ⟨-, -, -, -, e0, e1, e2, e3, -⟩ := index_facts t
  show (V c main_v6 : S23x16x512x1.Idx → EReal) (((cfg1.win 1).blk t).view.emb (ix4 u0 u1 d u3)) = _
  refine congrArg (V c main_v6 : S23x16x512x1.Idx → EReal) (funext fun a => Fin.ext ?_)
  have h0 : u0.val = 0 := by omega
  have h1 : u1.val = 0 := by omega
  have h3 : u3.val = 0 := by omega
  match a with
  | ⟨0, _⟩ => show win1_1.index t (0 : Fin 4) * 1 + 1 * u0.val = cc.val; rw [e0, hc, h0]; omega
  | ⟨1, _⟩ => show win1_1.index t (1 : Fin 4) * 1 + 1 * u1.val = bb.val; rw [e1, hb, h1]; omega
  | ⟨2, _⟩ => show win1_1.index t (2 : Fin 4) * 512 + 1 * d.val = d.val; rw [e2]; omega
  | ⟨3, _⟩ => show win1_1.index t (3 : Fin 4) * 1 + 1 * u3.val = 0; rw [e3, h3]

/-- The three weight blocks are the weights whole. -/
theorem block_wbin (c : Dev nD) (t : Fin cfg1.N) : iblk1 V c 2 t = V c main_v21 := by
  obtain ⟨-, -, -, -, -, -, -, -, e0, e1, -⟩ := index_facts t
  funext y
  show V c main_v21 (((cfg1.win 2).blk t).view.emb y) = V c main_v21 y
  refine congrArg (V c main_v21) (funext fun a => Fin.ext ?_)
  match a with
  | ⟨0, _⟩ => show win1_2.index t (0 : Fin 2) * 512 + 1 * (y 0).val = (y 0).val; rw [e0]; omega
  | ⟨1, _⟩ => show win1_2.index t (1 : Fin 2) * 256 + 1 * (y 1).val = (y 1).val; rw [e1]; omega

theorem block_wfc (c : Dev nD) (t : Fin cfg1.N) : iblk1 V c 3 t = V c main_v22 := by
  obtain ⟨-, -, -, -, -, -, -, -, -, -, e0, e1, -⟩ := index_facts t
  funext y
  show V c main_v22 (((cfg1.win 3).blk t).view.emb y) = V c main_v22 y
  refine congrArg (V c main_v22) (funext fun a => Fin.ext ?_)
  match a with
  | ⟨0, _⟩ => show win1_3.index t (0 : Fin 2) * 3 + 1 * (y 0).val = (y 0).val; rw [e0]; omega
  | ⟨1, _⟩ => show win1_3.index t (1 : Fin 2) * 1024 + 1 * (y 1).val = (y 1).val; rw [e1]; omega

theorem block_bfc (c : Dev nD) (t : Fin cfg1.N) : iblk1 V c 4 t = V c main_arg8 := by
  obtain ⟨-, -, -, -, -, -, -, -, -, -, -, -, e0, -⟩ := index_facts t
  funext y
  show V c main_arg8 (((cfg1.win 4).blk t).view.emb y) = V c main_arg8 y
  refine congrArg (V c main_arg8) (funext fun a => Fin.ext ?_)
  match a with
  | ⟨0, _⟩ => show win1_4.index t (0 : Fin 1) * 3 + 1 * (y 0).val = (y 0).val; rw [e0]; omega

/-- The prediction, of the arrays as the call finds them: the projected end-of-sequence embedding of (b, c) is read
    off the column array at (c, b, ·, 0). -/
abbrev pred (c : Dev nD) : Buf (Elt Ideal) ((c : Thread nD τ).loc main_v23) :=
  Cert.Decoder.predAt (V c main_v20) (V c main_v21)
    (fun bb cc d => (V c main_v6 : S23x16x512x1.Idx → EReal) (ix4 cc bb d (0 : Fin 1))) (V c main_v22) (V c main_arg8)

/-- What point `t` writes back is block `t` of the prediction. -/
theorem flushed_eq (c : Dev nD) (t : Fin cfg1.N) :
    (dat1 V c).flushed 5 t = ((cfg1.win 5).blk t).view.read (Elt Ideal) (pred V c) := by
  show (cfg1.win 5).cut (grid1.coords t) ((dat1 V c).after 5 t) = _
  rw [after1_5]
  unfold out1_5
  rw [View.canon_unit_zero zeros4]
  simp only [View.ld_unit_zero (S := S1x1x512x256) zeros4, View.ld_unit_zero (S := S1x1x512x1) zeros4,
    View.ld_unit_zero (S := S512x256) zeros2, View.ld_unit_zero (S := S3x1024) zeros2, View.ld_unit_zero (S := S3) zeros1]
  rw [block_wbin, block_wfc, block_bfc]
  obtain ⟨-, -, -, -, -, -, -, -, -, -, -, -, -, e2, e3, l0, l1⟩ := index_facts t
  obtain ⟨cc, hc⟩ : ∃ cc : Fin 23, win1_5.index t (0 : Fin 4) = cc.val := ⟨⟨_, l0⟩, rfl⟩
  obtain ⟨bb, hb⟩ : ∃ bb : Fin 16, win1_5.index t (1 : Fin 4) = bb.val := ⟨⟨_, l1⟩, rfl⟩
  funext y
  obtain ⟨u0, u1, s, n, rfl⟩ : ∃ (u0 u1 : Fin 1) (s : Fin 512) (n : Fin 3), y = ix4 u0 u1 s n := ⟨y 0, y 1, y 2, y 3, eq_ix4 y⟩
  have hI : ((cfg1.win 5).blk t).view.emb (ix4 u0 u1 s n) = ix4 cc bb s n := by
    have h0 : u0.val = 0 := by omega
    have h1 : u1.val = 0 := by omega
    funext a
    apply Fin.ext
    match a with
    | ⟨0, _⟩ => show win1_5.index t (0 : Fin 4) * 1 + 1 * u0.val = cc.val; rw [hc, h0]; omega
    | ⟨1, _⟩ => show win1_5.index t (1 : Fin 4) * 1 + 1 * u1.val = bb.val; rw [hb, h1]; omega
    | ⟨2, _⟩ => show win1_5.index t (2 : Fin 4) * 512 + 1 * s.val = s.val; rw [e2]; omega
    | ⟨3, _⟩ => show win1_5.index t (3 : Fin 4) * 3 + 1 * n.val = n.val; rw [e3]; omega
  show k1_pay1 (iblk1 V c 0 t) (V c main_v21) (iblk1 V c 1 t) (V c main_v22) (V c main_arg8) (ix4 u0 u1 s n)
    = pred V c (((cfg1.win 5).blk t).view.emb (ix4 u0 u1 s n))
  rw [hI]
  refine (payload_at (iblk1 V c 0 t) (V c main_v21) (iblk1 V c 1 t) (V c main_v22) (V c main_arg8) u0 u1 s n).trans ?_
  show _ = Cert.Decoder.predAt _ _ _ _ _ (ix4 cc bb s n)
  unfold Cert.Decoder.predAt
  refine congrArg₂ max (congrArg₂ (· + ·) (Finset.sum_congr rfl fun k _ => congrArg (· * _) ?_) rfl) rfl
  unfold rowFeat Cert.Decoder.featAt
  by_cases h : k.val < 512
  · rw [dif_pos h, dif_pos h]
    exact Finset.sum_congr rfl fun e _ => congrArg (· * _) (block_emb V c t cc bb hc hb 0 0 s e)
  · rw [dif_neg h, dif_neg h]
    exact block_eos V c t cc bb hc hb 0 0 _ 0

/-- An index of the result array is in point `t`'s block iff each coordinate is in the block's range. -/
theorem mem_block (t : Fin cfg1.N) (i : S23x16x512x3.Idx) :
    i ∈ ((cfg1.win 5).blk t).view.set ↔ ∀ a : Fin 4, win1_5.index t a * S1x1x512x3.size a ≤ (i a).val
      ∧ (i a).val < win1_5.index t a * S1x1x512x3.size a + S1x1x512x3.size a := by
  show i ∈ ((View.whole main_v23).slice (win1_5.rect t)).set ↔ _
  rw [View.set_slice_whole, Rect.mem_set_unit]
  exact Iff.rfl

/-- The result array after the call is the prediction. -/
theorem final (c : Dev nD) : (dat1 V c).arrAt 5 cfg1.N = pred V c :=
  (dat1 V c).arrAt_eq_of_cover 5 (pred V c) (fun t _ => flushed_eq V c t) fun i => by
    obtain ⟨t, hc, hb⟩ := index_onto (i 0) (i 1)
    obtain ⟨-, -, -, -, -, -, -, -, -, -, -, -, -, e2, e3, -⟩ := index_facts t
    refine ⟨t, flush1_5 t, ?_⟩
    rw [mem_block]
    intro a
    match a with
    | ⟨0, _⟩ => show win1_5.index t (0 : Fin 4) * 1 ≤ (i 0).val ∧ (i 0).val < win1_5.index t (0 : Fin 4) * 1 + 1; rw [hc]; omega
    | ⟨1, _⟩ => show win1_5.index t (1 : Fin 4) * 1 ≤ (i 1).val ∧ (i 1).val < win1_5.index t (1 : Fin 4) * 1 + 1; rw [hb]; omega
    | ⟨2, _⟩ =>
      show win1_5.index t (2 : Fin 4) * 512 ≤ (i 2).val ∧ (i 2).val < win1_5.index t (2 : Fin 4) * 512 + 512
      have h2 : (i 2).val < 512 := (i 2).isLt; rw [e2]; omega
    | ⟨3, _⟩ =>
      show win1_5.index t (3 : Fin 4) * 3 ≤ (i 3).val ∧ (i 3).val < win1_5.index t (3 : Fin 4) * 3 + 3
      have h3 : (i 3).val < 3 := (i 3).isLt; rw [e3]; omega

end Cert.KernelIdeal.Main

end
-- ==== Proof.HostGlue.lean ====
/-
  The host operations around the two calls, read back to the argument arrays.

  Before the projection call @main flattens eos_emb from [16, 23, 512] to [368, 512] (row b·23 + c is (b, c)) and
  changes the float format of it and of W_eos, which at the ideal values changes nothing. Between the calls it
  unflattens the projection, swaps the batch and class axes, appends a unit axis, computes the gather indices from
  sampled_indices, gathers the embedding rows, and changes the format of the table, W_bin and W_fc. No host operation
  and no call writes an argument array, so each is read back to the launch memory.
-/
import proofs.«118054_j82643760710187_1_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Glue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Entering the projection call -/

/-- The flattened embeddings: row b·23 + c is eos_emb[b, c, ·]. -/
theorem flat_x (c : Dev nD) (b : Fin 16) (cc : Fin 23) (e : Fin 512) :
    (V1 m ρ c main_v1 : S368x512.Idx → EReal) (ix2 ⟨b.val * 23 + cc.val, by have := b.isLt; have := cc.isLt; omega⟩ e)
      = (m ((c : Thread nD τ).loc main_arg0) : S16x23x512.Idx → EReal) (ix3 b cc e) := by
  have h : @Eq (S368x512.Idx → EReal) (V1 m ρ c main_v1)
      (truncf (F := Ideal) .bf16 (shapeCast S368x512 (m ((c : Thread nD τ).loc main_arg0)) shapeCasts_S16x23x512_S368x512) bitsLt_bf16_f32) := by
    show StableHlo.after hostOps0 (W0 m ρ c) (Proc.devRef .tc main_v1) = _
    after_results_simp
    rfl
  rw [h]
  exact shapeCast_apply _ shapeCasts_S16x23x512_S368x512 _ (ix3 b cc e) (by
    rw [Shape.rowMajor_val_three, Shape.rowMajor_val_two]
    rfl)

/-- The projection weight as the call finds it is W_eos. -/
theorem entry_w (c : Dev nD) : (V1 m ρ c main_v2 : S512x512.Idx → EReal) = m ((c : Thread nD τ).loc main_arg5) := by
  show StableHlo.after hostOps0 (W0 m ρ c) (Proc.devRef .tc main_v2) = _
  after_results_simp
  rfl

/-- The projection bias as the call finds it is b_eos. -/
theorem entry_b (c : Dev nD) : (V1 m ρ c main_arg6 : S512.Idx → EReal) = m ((c : Thread nD τ).loc main_arg6) := by
  show StableHlo.after hostOps0 (W0 m ρ c) (Proc.devRef .tc main_arg6) = _
  after_results_simp

/-! ## Between the calls -/

/-- An argument array that the projection call does not use is, when that call returns, as launched. -/
theorem kept_through_eos (c : Dev nD) (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) :=
  (W2_of_ne m ρ c b hb).trans h0

theorem kept_arg1 (c : Dev nD) : W2 m ρ c (Proc.devRef .tc main_arg1) = m ((c : Thread nD τ).loc main_arg1) :=
  kept_through_eos m ρ c main_arg1 (by decide) (by after_results_simp)
theorem kept_arg3 (c : Dev nD) : W2 m ρ c (Proc.devRef .tc main_arg3) = m ((c : Thread nD τ).loc main_arg3) :=
  kept_through_eos m ρ c main_arg3 (by decide) (by after_results_simp)
theorem kept_arg4 (c : Dev nD) : W2 m ρ c (Proc.devRef .tc main_arg4) = m ((c : Thread nD τ).loc main_arg4) :=
  kept_through_eos m ρ c main_arg4 (by decide) (by after_results_simp)
theorem kept_arg7 (c : Dev nD) : W2 m ρ c (Proc.devRef .tc main_arg7) = m ((c : Thread nD τ).loc main_arg7) :=
  kept_through_eos m ρ c main_arg7 (by decide) (by after_results_simp)
theorem kept_arg8 (c : Dev nD) : W2 m ρ c (Proc.devRef .tc main_arg8) = m ((c : Thread nD τ).loc main_arg8) :=
  kept_through_eos m ρ c main_arg8 (by decide) (by after_results_simp)

/-- The gather indices as @main computes them from sampled_indices: class c's offset c · 5000 added, a negative sum
    wrapped once by the table's 115000 rows, a unit axis appended. Both programs print this same term. -/
abbrev rowIndices (x1 : S23x16x512.Idx → BitVec 32) : S23x16x512x1.Idx → BitVec 32 :=
  broadcastInDim S23x16x512x1 ![0, 1, 2] bcast_S23x16x512_S23x16x512x1_0_1_2
    (select
      (cmpi CmpIPredicate.slt
        (addi x1
          (broadcastInDim S23x16x512 ![0, 1, 2] bcast_S23x1x1_S23x16x512_0_1_2
            (broadcastInDim S23x1x1 ![0] bcast_S23_S23x1x1_0
              (muli (iotaInDim S23 32 0) (broadcastInDim S23 ![] bcast_S_S23 (constantI S_ 32 5000#32))))))
        (broadcastInDim S23x16x512 ![] bcast_S_S23x16x512 (constantI S_ 32 0#32)))
      (addi
        (addi x1
          (broadcastInDim S23x16x512 ![0, 1, 2] bcast_S23x1x1_S23x16x512_0_1_2
            (broadcastInDim S23x1x1 ![0] bcast_S23_S23x1x1_0
              (muli (iotaInDim S23 32 0) (broadcastInDim S23 ![] bcast_S_S23 (constantI S_ 32 5000#32))))))
        (broadcastInDim S23x16x512 ![] bcast_S_S23x16x512 (constantI S_ 32 115000#32)))
      (addi x1
        (broadcastInDim S23x16x512 ![0, 1, 2] bcast_S23x1x1_S23x16x512_0_1_2
          (broadcastInDim S23x1x1 ![0] bcast_S23_S23x1x1_0
            (muli (iotaInDim S23 32 0) (broadcastInDim S23 ![] bcast_S_S23 (constantI S_ 32 5000#32)))))))

/-- The gathered embeddings: the table's rows at those indices. -/
abbrev gathered (x1 : S23x16x512.Idx → BitVec 32) (x3 : S115000x256.Idx → EReal) : S23x16x512x256.Idx → EReal :=
  Host.gather gather_S115000x256_S23x16x512x1_S23x16x512x256_3_0_n_n_0_3_1256 x3 (rowIndices x1)

set_option maxHeartbeats 4000000 in
/-- The embedding array as the main call finds it. -/
theorem entry_emb (c : Dev nD) : (V3 m ρ c main_v20 : S23x16x512x256.Idx → EReal)
    = gathered (m ((c : Thread nD τ).loc main_arg1)) (m ((c : Thread nD τ).loc main_arg3)) := by
  show StableHlo.after hostOps1 (W2 m ρ c) (Proc.devRef .tc main_v20) = _
  after_results_simp
  rw [kept_arg1, kept_arg3]
  refine congrArg₂ (Host.gather gather_S115000x256_S23x16x512x1_S23x16x512x256_3_0_n_n_0_3_1256) ?_ ?_
  · rfl
  · rfl

set_option maxHeartbeats 4000000 in
/-- W_bin as the main call finds it. -/
theorem entry_wbin (c : Dev nD) : (V3 m ρ c main_v21 : S512x256.Idx → EReal) = m ((c : Thread nD τ).loc main_arg4) := by
  show StableHlo.after hostOps1 (W2 m ρ c) (Proc.devRef .tc main_v21) = _
  after_results_simp
  rw [kept_arg4]
  rfl

set_option maxHeartbeats 4000000 in
/-- W_fc as the main call finds it. -/
theorem entry_wfc (c : Dev nD) : (V3 m ρ c main_v22 : S3x1024.Idx → EReal) = m ((c : Thread nD τ).loc main_arg7) := by
  show StableHlo.after hostOps1 (W2 m ρ c) (Proc.devRef .tc main_v22) = _
  after_results_simp
  rw [kept_arg7]
  rfl

set_option maxHeartbeats 4000000 in
/-- b_fc as the main call finds it. -/
theorem entry_bfc (c : Dev nD) : (V3 m ρ c main_arg8 : S3.Idx → EReal) = m ((c : Thread nD τ).loc main_arg8) := by
  show StableHlo.after hostOps1 (W2 m ρ c) (Proc.devRef .tc main_arg8) = _
  after_results_simp
  exact kept_arg8 m ρ c

set_option maxHeartbeats 4000000 in
/-- The projected column as the main call finds it: at (c, b, d, 0) it is the projection call's result at row
    b·23 + c, feature d — unflattened, its batch and class axes swapped, a unit axis appended. -/
theorem entry_eos (c : Dev nD) (cc : Fin 23) (b : Fin 16) (d : Fin 512) :
    (V3 m ρ c main_v6 : S23x16x512x1.Idx → EReal) (ix4 cc b d (0 : Fin 1))
      = (W2 m ρ c (Proc.devRef .tc main_v3) : S368x512.Idx → EReal)
          (ix2 ⟨b.val * 23 + cc.val, by have := b.isLt; have := cc.isLt; omega⟩ d) := by
  have h : @Eq (S23x16x512x1.Idx → EReal) (V3 m ρ c main_v6)
      (broadcastInDim S23x16x512x1 ![0, 1, 2] bcast_S23x16x512_S23x16x512x1_0_1_2
          (transpose S23x16x512 [1, 0, 2]
            (shapeCast S16x23x512 (W2 m ρ c (Proc.devRef .tc main_v3) : S368x512.Idx → EReal) shapeCasts_S368x512_S16x23x512)
            transposes_S16x23x512_S23x16x512_1_0_2)) := by
    show StableHlo.after hostOps1 (W2 m ρ c) (Proc.devRef .tc main_v6) = _
    after_results_simp
    rfl
  rw [h]
  refine (broadcastInDim_apply _ bcast_S23x16x512_S23x16x512x1_0_1_2 _ (ix4 cc b d (0 : Fin 1)) (ix3 cc b d) (fun a => match a with
    | ⟨0, _⟩ => by show cc.val = if (23 : Nat) = 1 then 0 else cc.val; rw [if_neg (by decide)]
    | ⟨1, _⟩ => by show b.val = if (16 : Nat) = 1 then 0 else b.val; rw [if_neg (by decide)]
    | ⟨2, _⟩ => by show d.val = if (512 : Nat) = 1 then 0 else d.val; rw [if_neg (by decide)])).trans ?_
  refine (transpose_apply [1, 0, 2] _ transposes_S16x23x512_S23x16x512_1_0_2 (ix3 cc b d) (ix3 b cc d) (fun x => match x with
    | ⟨0, _⟩ => rfl
    | ⟨1, _⟩ => rfl
    | ⟨2, _⟩ => rfl)).trans ?_
  exact shapeCast_apply _ shapeCasts_S368x512_S16x23x512 (ix3 b cc d) _ (by
    rw [Shape.rowMajor_val_three, Shape.rowMajor_val_two]
    rfl)

end Cert.KernelIdeal.Glue

end
-- ==== Proof.KernelValue.lean ====
/-
  The idealized kernel program's result is the prediction.

  The main call's result array ends holding the prediction of the arrays it finds; those are read back through the host
  operations to the arguments, and the column of projected end-of-sequence embeddings it finds is, through the
  unflattening and the swap of axes, the projection call's result — row b·23 + c, feature d being the projected
  embedding of batch row b and class c at d.
-/
import proofs.«118054_j82643760710187_1_alg».proof.Proof.KernelRun
import proofs.«118054_j82643760710187_1_alg».proof.Proof.EosPayload
import proofs.«118054_j82643760710187_1_alg».proof.Proof.EosRegion
import proofs.«118054_j82643760710187_1_alg».proof.Proof.MainRegion
import proofs.«118054_j82643760710187_1_alg».proof.Proof.HostGlue
import proofs.«118054_j82643760710187_1_alg».proof.Proof.Spec

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The projection call's result at row b·23 + c, feature d. -/
theorem projection_at (c : Dev nD) (b : Fin 16) (cc : Fin 23) (d : Fin 512) :
    (W2 m ρ c (Proc.devRef .tc main_v3) : S368x512.Idx → EReal)
        (ix2 ⟨b.val * 23 + cc.val, by have := b.isLt; have := cc.isLt; omega⟩ d)
      = Cert.Decoder.eosAt (m ((c : Thread nD τ).loc main_arg0)) (m ((c : Thread nD τ).loc main_arg5))
          (m ((c : Thread nD τ).loc main_arg6)) b cc d := by
  have h : W2 m ρ c (Proc.devRef .tc main_v3) = Eos.stored (V1 m ρ) c :=
    (W2_arr m ρ c 3).trans (Eos.final (V1 m ρ) c)
  rw [h]
  refine (Eos.payload_at (V1 m ρ c main_v1) (V1 m ρ c main_v2) (V1 m ρ c main_arg6) _ d).trans ?_
  unfold Cert.Decoder.eosAt
  rw [Glue.entry_w, Glue.entry_b]
  exact congrArg₂ (· + ·) (Finset.sum_congr rfl fun e _ => congrArg (· * _) (Glue.flat_x m ρ c b cc e)) rfl

/-- The result array when @main returns. -/
theorem result (c : Dev nD) :
    W4 m ρ c (Proc.devRef .tc main_v23)
      = Cert.Decoder.predAt (Glue.gathered (m ((c : Thread nD τ).loc main_arg1)) (m ((c : Thread nD τ).loc main_arg3)))
          (m ((c : Thread nD τ).loc main_arg4))
          (Cert.Decoder.eosAt (m ((c : Thread nD τ).loc main_arg0)) (m ((c : Thread nD τ).loc main_arg5))
            (m ((c : Thread nD τ).loc main_arg6)))
          (m ((c : Thread nD τ).loc main_arg7)) (m ((c : Thread nD τ).loc main_arg8)) := by
  have h1 : W4 m ρ c (Proc.devRef .tc main_v23) = Main.pred (V3 m ρ) c :=
    (W4_arr m ρ c 5).trans (Main.final (V3 m ρ) c)
  have hP : (fun (bb : Fin 16) (cc : Fin 23) (d : Fin 512) =>
        (V3 m ρ c main_v6 : S23x16x512x1.Idx → EReal) (ix4 cc bb d (0 : Fin 1)))
      = Cert.Decoder.eosAt (m ((c : Thread nD τ).loc main_arg0)) (m ((c : Thread nD τ).loc main_arg5))
          (m ((c : Thread nD τ).loc main_arg6)) := by
    funext bb cc d
    exact (Glue.entry_eos m ρ c cc bb d).trans (projection_at m ρ c bb cc d)
  rw [h1]
  show Cert.Decoder.predAt (V3 m ρ c main_v20) (V3 m ρ c main_v21) _ (V3 m ρ c main_v22) (V3 m ρ c main_arg8) = _
  rw [hP, Glue.entry_emb, Glue.entry_wbin, Glue.entry_wfc, Glue.entry_bfc]

/-- The run, read: the result array at the prediction of the arguments, the arguments unchanged. -/
theorem run_value : θ_run defs (onTc (τ := τ) (main (F := Ideal))) ⟨m, fun _ => 0, ρ⟩ (fun r => ∀ c : Dev nD,
      r.2.mem ((c.tc : Thread nD τ).loc main_v23)
        = Cert.Decoder.predAt (Glue.gathered (m ((c : Thread nD τ).loc main_arg1)) (m ((c : Thread nD τ).loc main_arg3)))
          (m ((c : Thread nD τ).loc main_arg4))
          (Cert.Decoder.eosAt (m ((c : Thread nD τ).loc main_arg0)) (m ((c : Thread nD τ).loc main_arg5))
            (m ((c : Thread nD τ).loc main_arg6)))
          (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result m ρ c), (h c).2⟩) (run m ρ)

end Cert.KernelIdeal.Whole

end
-- ==== Proof.RefValue.lean ====
/-
  The reference program's result is the prediction.

  Read one host operation at a time: the result is the larger of zero and the contraction over 1024 features of the
  joined array with W_fc, plus b_fc; the joined array is, below feature 512, the gathered embeddings contracted with
  W_bin, and from 512 on the projected end-of-sequence embedding — eos_emb contracted with W_eos plus b_eos — with its
  batch and class axes swapped and repeated over the bins.
-/
import proofs.«118054_j82643760710187_1_alg».proof.Proof.Gen.ReferenceIdeal.Read
import proofs.«118054_j82643760710187_1_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- The projected end-of-sequence embedding, before the axes are swapped: at (b, c, d). -/
theorem projected_at (x0 : S16x23x512.Idx → EReal) (x5 : S512x512.Idx → EReal) (x6 : S512.Idx → EReal)
    (b : Fin 16) (c : Fin 23) (d : Fin 512) :
    val_main_v3 (F := Ideal) x0 x5 x6 (ix3 b c d) = Cert.Decoder.eosAt x0 x5 x6 b c d := by
  rw [val_main_v3_apply, val_main_v0_apply, val_main_v2_apply, val_main_v1_apply]
  unfold Cert.Decoder.eosAt
  refine congrArg₂ (· + ·) (Finset.sum_congr rfl fun e _ => congrArg₂ (· * ·) (congrArg x0 ?_) (congrArg x5 ?_)) (congrArg x6 ?_)
  · funext a; match a with | ⟨0, _⟩ => rfl | ⟨1, _⟩ => rfl | ⟨2, _⟩ => rfl
  · funext a; match a with | ⟨0, _⟩ => rfl | ⟨1, _⟩ => rfl
  · funext a; match a with | ⟨0, _⟩ => rfl

/-- The repeated half of the joined array: at (c, b, s, d) the projected embedding of (b, c) at d, whatever s. -/
theorem repeated_at (x0 : S16x23x512.Idx → EReal) (x5 : S512x512.Idx → EReal) (x6 : S512.Idx → EReal)
    (c : Fin 23) (b : Fin 16) (s : Fin 512) (d : Fin 512) :
    val_main_v20 (F := Ideal) x0 x5 x6 (ix4 c b s d) = Cert.Decoder.eosAt x0 x5 x6 b c d := by
  rw [val_main_v20_apply, val_main_v19_apply, val_main_v18_apply]
  refine Eq.trans (congrArg (val_main_v3 (F := Ideal) x0 x5 x6) ?_) (projected_at x0 x5 x6 b c d)
  funext a; match a with | ⟨0, _⟩ => rfl | ⟨1, _⟩ => rfl | ⟨2, _⟩ => rfl

/-- The projected half: at (c, b, s, k) the gathered embedding row of (c, b, s) times row k of W_bin. -/
theorem projected_bin_at (x1 : S23x16x512.Idx → BitVec 32) (x3 : S115000x256.Idx → EReal) (x4 : S512x256.Idx → EReal)
    (c : Fin 23) (b : Fin 16) (s : Fin 512) (k : Fin 512) :
    val_main_v17 (F := Ideal) x1 x3 x4 (ix4 c b s k)
      = ∑ e : Fin 256, val_main_v16 (F := Ideal) x1 x3 (ix4 c b s e) * x4 (ix2 k e) := by
  rw [val_main_v17_apply]
  refine Finset.sum_congr rfl fun e _ => congrArg₂ (· * ·) (congrArg (val_main_v16 (F := Ideal) x1 x3) ?_) (congrArg x4 ?_)
  · funext a; match a with | ⟨0, _⟩ => rfl | ⟨1, _⟩ => rfl | ⟨2, _⟩ => rfl | ⟨3, _⟩ => rfl
  · funext a; match a with | ⟨0, _⟩ => rfl | ⟨1, _⟩ => rfl

/-- The joined array at (c, b, s, k) is feature k of the row of (c, b, s). -/
theorem joined_at (x0 : S16x23x512.Idx → EReal) (x1 : S23x16x512.Idx → BitVec 32) (x3 : S115000x256.Idx → EReal)
    (x4 : S512x256.Idx → EReal) (x5 : S512x512.Idx → EReal) (x6 : S512.Idx → EReal)
    (c : Fin 23) (b : Fin 16) (s : Fin 512) (k : Fin 1024) :
    val_main_v21 (F := Ideal) x0 x1 x3 x4 x5 x6 (ix4 c b s k)
      = Cert.Decoder.featAt (val_main_v16 (F := Ideal) x1 x3) x4 (Cert.Decoder.eosAt x0 x5 x6) c b s k := by
  unfold val_main_v21 Cert.Decoder.featAt
  by_cases h : k.val < 512
  · rw [dif_pos h]
    refine (concatenate_pair_apply_left (s₁ := S23x16x512x512) (s₂ := S23x16x512x512) (3 : Fin 4) _ _ _ (ix4 c b s k) rfl (ix4 c b s ⟨k.val, h⟩)
      (fun a => match a with | ⟨0, _⟩ => rfl | ⟨1, _⟩ => rfl | ⟨2, _⟩ => rfl | ⟨3, _⟩ => rfl)).trans ?_
    exact projected_bin_at x1 x3 x4 c b s ⟨k.val, h⟩
  · rw [dif_neg h]
    refine (concatenate_pair_apply_right (s₁ := S23x16x512x512) (s₂ := S23x16x512x512) (3 : Fin 4) _ _ _ (ix4 c b s k) rfl rfl
      (ix4 c b s ⟨k.val - 512, by have := k.isLt; omega⟩)
      (fun a => match a with
        | ⟨0, _⟩ => fun _ => rfl | ⟨1, _⟩ => fun _ => rfl | ⟨2, _⟩ => fun _ => rfl | ⟨3, _⟩ => fun ha => absurd rfl ha)
      (by show k.val - 512 + 512 = k.val; omega)).trans ?_
    exact repeated_at x0 x5 x6 c b s _

/-- The reference's result, entry by entry, is the prediction. -/
theorem result_at (x0 : S16x23x512.Idx → EReal) (x1 : S23x16x512.Idx → BitVec 32) (x3 : S115000x256.Idx → EReal)
    (x4 : S512x256.Idx → EReal) (x5 : S512x512.Idx → EReal) (x6 : S512.Idx → EReal) (x7 : S3x1024.Idx → EReal)
    (x8 : S3.Idx → EReal) (c : Fin 23) (b : Fin 16) (s : Fin 512) (n : Fin 3) :
    val_main_v26 (F := Ideal) x0 x1 x3 x4 x5 x6 x7 x8 (ix4 c b s n)
      = Cert.Decoder.predAt (val_main_v16 (F := Ideal) x1 x3) x4 (Cert.Decoder.eosAt x0 x5 x6) x7 x8 (ix4 c b s n) := by
  rw [val_main_v26_apply, val_main_v25_apply, val_main_v22_apply, val_main_v24_apply, val_main_v23_apply,
    val_main_call0_v0_apply, val_main_call0_cst_apply]
  unfold Cert.Decoder.predAt
  refine congrArg₂ max (congrArg₂ (· + ·) (Finset.sum_congr rfl fun k _ => congrArg₂ (· * ·) ?_ (congrArg x7 ?_)) (congrArg x8 ?_)) rfl
  · refine Eq.trans (congrArg (val_main_v21 (F := Ideal) x0 x1 x3 x4 x5 x6) ?_) (joined_at x0 x1 x3 x4 x5 x6 c b s k)
    funext a; match a with | ⟨0, _⟩ => rfl | ⟨1, _⟩ => rfl | ⟨2, _⟩ => rfl | ⟨3, _⟩ => rfl
  · funext a; match a with | ⟨0, _⟩ => rfl | ⟨1, _⟩ => rfl
  · funext a; match a with | ⟨0, _⟩ => rfl

/-- As whole arrays. -/
theorem result_eq (x0 : S16x23x512.Idx → EReal) (x1 : S23x16x512.Idx → BitVec 32) (x3 : S115000x256.Idx → EReal)
    (x4 : S512x256.Idx → EReal) (x5 : S512x512.Idx → EReal) (x6 : S512.Idx → EReal) (x7 : S3x1024.Idx → EReal)
    (x8 : S3.Idx → EReal) :
    val_main_v26 (F := Ideal) x0 x1 x3 x4 x5 x6 x7 x8
      = Cert.Decoder.predAt (val_main_v16 (F := Ideal) x1 x3) x4 (Cert.Decoder.eosAt x0 x5 x6) x7 x8 := by
  funext i
  rw [eq_ix4 i]
  exact result_at x0 x1 x3 x4 x5 x6 x7 x8 (i 0) (i 1) (i 2) (i 3)

end Cert.ReferenceIdeal.RefValue

end
-- ==== Proof.lean ====
/-
  The decoder kernel against its jnp reference, over the extended reals.

  Both programs compute, for class c, batch row b, sampled bin s and state n,
      max( Σ_{k<1024} feat(c, b, s, k) · W_fc[n, k] + b_fc[n], 0 ),
  where feat(c, b, s, k) is Σ_e E[c, b, s, e] · W_bin[k, e] for k < 512 and the projected end-of-sequence embedding
  (Σ_e eos_emb[b, c, e] · W_eos[k − 512, e]) + b_eos[k − 512] from 512 on, and E is the table's rows gathered at the
  same integer indices in both programs (`Cert.Decoder.predAt`, Proof/Spec.lean).

  The kernel program reaches it in two calls: a one-point call that projects the flattened [368, 512] embeddings
  (Proof/EosPayload.lean, Proof/EosRegion.lean), and a 23 × 16 grid whose point (c, b) multiplies the [512, 256] block
  of gathered rows by W_bin, joins the projected column of (c, b) to it, multiplies by W_fc, adds the bias and takes
  the larger of that and zero (Proof/MainPayload.lean, Proof/MainRegion.lean); the host operations between them are
  read back to the arguments in Proof/HostGlue.lean, the whole run in Proof/KernelRun.lean and Proof/KernelValue.lean.
  The reference reaches it by three contractions, a transpose, two broadcasts and a concatenation
  (Proof/RefValue.lean). No law of arithmetic beyond the order of the terms being the same is needed: the sums on the
  two sides are the same sums, term by term, so the finiteness of the inputs is never used.
-/
import proofs.«118054_j82643760710187_1_alg».proof.Defs
import proofs.«118054_j82643760710187_1_alg».proof.Proof.Gen.Kernel
import proofs.«118054_j82643760710187_1_alg».proof.Proof.Gen.Kernel.Skeleton
import proofs.«118054_j82643760710187_1_alg».proof.Proof.Gen.Kernel.Launch
import proofs.«118054_j82643760710187_1_alg».proof.Proof.Gen.Kernel.Points
import proofs.«118054_j82643760710187_1_alg».proof.Proof.Gen.Kernel.Frame
import proofs.«118054_j82643760710187_1_alg».proof.Proof.Gen.KernelIdeal
import proofs.«118054_j82643760710187_1_alg».proof.Proof.Gen.KernelIdeal.Skeleton
import proofs.«118054_j82643760710187_1_alg».proof.Proof.Gen.KernelIdeal.Launch
import proofs.«118054_j82643760710187_1_alg».proof.Proof.Gen.KernelIdeal.Points
import proofs.«118054_j82643760710187_1_alg».proof.Proof.Gen.KernelIdeal.Frame
import proofs.«118054_j82643760710187_1_alg».proof.Proof.Gen.ReferenceIdeal
import proofs.«118054_j82643760710187_1_alg».proof.Proof.Gen.ReferenceIdeal.Run
import proofs.«118054_j82643760710187_1_alg».proof.Proof.Gen.ReferenceIdeal.Read
import proofs.«118054_j82643760710187_1_alg».proof.Proof.Gen.Pre_finite_inputs
import proofs.«118054_j82643760710187_1_alg».proof.Proof.KernelValue
import proofs.«118054_j82643760710187_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs, nothing faults, and its arguments end unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- The idealization rewrote nothing. -/
theorem preserves : Cert.preserves_Kernel_KernelIdeal := trivial

/-- The rows both programs gather are the same array: the same gather of the same table at the same indices. -/
theorem gathered_eq (x1 : Cert.KernelIdeal.S23x16x512.Idx → BitVec 32) (x3 : Cert.KernelIdeal.S115000x256.Idx → EReal) :
    Cert.ReferenceIdeal.Read.val_main_v16 (F := Ideal) x1 x3 = Cert.KernelIdeal.Glue.gathered x1 x3 := rfl

/-- From memories that agree on the arguments both idealized programs end with the prediction of the arguments in
    their result arrays, and with the targets array as it was. -/
theorem algebraic : Cert.algebraic_KernelIdeal_ReferenceIdeal := by
  intro m ρ m' ρ' _ hagree
  refine ⟨_, fun c => m ((c.tc : Thread Cert.KernelIdeal.nD Cert.KernelIdeal.τ).loc Cert.KernelIdeal.main_arg2),
    (θ_run Cert.KernelIdeal.defs _ _).mono (fun r h c => ⟨(h c).1, (h c).2.2.2.1, (h c).2⟩)
      (Cert.KernelIdeal.Whole.run_value m ρ), ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8⟩ := hagree c
    rw [Cert.ReferenceIdeal.Read.val_main_v26_eq, Cert.ReferenceIdeal.RefValue.result_eq, a0, a1, a3, a4, a5, a6, a7, a8,
      gathered_eq]
  · exact (hagree c).2.2.1

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
